-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S100x10000 : Shape := ⟨2, ![100, 10000]⟩
abbrev S10000x100 : Shape := ⟨2, ![10000, 100]⟩
abbrev S10000x10000 : Shape := ⟨2, ![10000, 10000]⟩
abbrev S_ : Shape := ⟨0, ![]⟩

class Facts : Prop where
  bcast_S_S10000x1 : S_.BroadcastsInDim S10000x1 (![] : Fin 0 → Fin S10000x1.rank)
  reducesTo_S10000x1_S_d0_1 : S10000x1.ReducesTo [0, 1] S_
  h_S_ : 0 < S_.numel
  bcast_S_S100x10000 : S_.BroadcastsInDim S100x10000 (![] : Fin 0 → Fin S100x10000.rank)
  reducesTo_S100x10000_S_d0_1 : S100x10000.ReducesTo [0, 1] S_
  bcast_S_S10000x100 : S_.BroadcastsInDim S10000x100 (![] : Fin 0 → Fin S10000x100.rank)
  reducesTo_S10000x100_S_d0_1 : S10000x100.ReducesTo [0, 1] S_
  bcast_S_S10000x10000 : S_.BroadcastsInDim S10000x10000 (![] : Fin 0 → Fin S10000x10000.rank)
  reducesTo_S10000x10000_S_d0_1 : S10000x10000.ReducesTo [0, 1] S_

variable [Facts]

def fn_part1 {F : FTy → Type} [FloatOps F] (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  main_v18

def fn {F : FTy → Type} [FloatOps F] (main_arg0 : FVec F S10000x1 .f32) (main_arg1 : FVec F S100x10000 .f32) (main_arg2 : FVec F S10000x100 .f32) (main_arg3 : FVec F S10000x10000 .f32) : IVec S_ 1 :=
  let main_v0 : FVec F S10000x1 .f32 := Host.absf main_arg0
  let main_cst : FVec F S_ .f32 := constant S_ .f32 0x7F800000#32
  let main_v1 : FVec F S10000x1 .f32 := broadcastInDim S10000x1 ![] bcast_S_S10000x1 main_cst
  let main_v2 : IVec S10000x1 1 := cmpf .olt main_v0 main_v1
  let main_c : IVec S_ 1 := constantI S_ 1 1#1
  let main_v3 : IVec S_ 1 := (fun x v => Host.reduce IntOp.andi x v reducesTo_S10000x1_S_d0_1 h_S_) main_v2 main_c
  let main_v4 : FVec F S100x10000 .f32 := Host.absf main_arg1
  let main_cst_0 : FVec F S_ .f32 := constant S_ .f32 0x7F800000#32
  let main_v5 : FVec F S100x10000 .f32 := broadcastInDim S100x10000 ![] bcast_S_S100x10000 main_cst_0
  let main_v6 : IVec S100x10000 1 := cmpf .olt main_v4 main_v5
  let main_c_1 : IVec S_ 1 := constantI S_ 1 1#1
  let main_v7 : IVec S_ 1 := (fun x v => Host.reduce IntOp.andi x v reducesTo_S100x10000_S_d0_1 h_S_) main_v6 main_c_1
  let main_v8 : IVec S_ 1 := andi main_v3 main_v7
  let main_v9 : FVec F S10000x100 .f32 := Host.absf main_arg2
  let main_cst_2 : FVec F S_ .f32 := constant S_ .f32 0x7F800000#32
  let main_v10 : FVec F S10000x100 .f32 := broadcastInDim S10000x100 ![] bcast_S_S10000x100 main_cst_2
  let main_v11 : IVec S10000x100 1 := cmpf .olt main_v9 main_v10
  let main_c_3 : IVec S_ 1 := constantI S_ 1 1#1
  let main_v12 : IVec S_ 1 := (fun x v => Host.reduce IntOp.andi x v reducesTo_S10000x100_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_v13 main_v16
-- ==== Kernel.lean ====
abbrev S10000x1 : Shape := ⟨2, ![10000, 1]⟩
abbrev S100x10000 : Shape := ⟨2, ![100, 10000]⟩
abbrev S10000x100 : Shape := ⟨2, ![10000, 100]⟩
abbrev S10000x10000 : Shape := ⟨2, ![10000, 10000]⟩
abbrev S100x1 : Shape := ⟨2, ![100, 1]⟩
abbrev S1x10000 : Shape := ⟨2, ![1, 10000]⟩
abbrev S1x100 : Shape := ⟨2, ![1, 100]⟩
abbrev S200x10000 : Shape := ⟨2, ![200, 10000]⟩
abbrev S200x100 : Shape := ⟨2, ![200, 100]⟩
abbrev S200x1 : Shape := ⟨2, ![200, 1]⟩
abbrev S200 : Shape := ⟨1, ![200]⟩

abbrev nBuf : Space → Nat
  | .hbm => 8
  | .vmem => 8
  | .smem => 0
  | _ => 0

abbrev bufTy : (tb : Table) → Fin (tcTables nBuf tb) → BufTy
  | .hbm, ⟨0, _⟩ => ⟨S10000x1, .f32⟩
  | .hbm, ⟨1, _⟩ => ⟨S100x10000, .f32⟩
  | .hbm, ⟨2, _⟩ => ⟨S10000x100, .f32⟩
  | .hbm, ⟨3, _⟩ => ⟨S10000x10000, .f32⟩
  | .hbm, ⟨4, _⟩ => ⟨S100x1, .f32⟩
  | .hbm, ⟨5, _⟩ => ⟨S1x10000, .f32⟩
  | .hbm, ⟨6, _⟩ => ⟨S1x100, .f32⟩
  | .hbm, ⟨7, _⟩ => ⟨S10000x1, .f32⟩
  | .local _ .vmem, ⟨0, _⟩ => ⟨S200x10000, .f32⟩
  | .local _ .vmem, ⟨1, _⟩ => ⟨S200x10000, .f32⟩
  | .local _ .vmem, ⟨2, _⟩ => ⟨S200x100, .f32⟩
  | .local _ .vmem, ⟨3, _⟩ => ⟨S200x100, .f32⟩
  | .local _ .vmem, ⟨4, _⟩ => ⟨S1x10000, .f32⟩
  | .local _ .vmem, ⟨5, _⟩ => ⟨S1x100, .f32⟩
  | .local _ .vmem, ⟨6, _⟩ => ⟨S200x1, .f32⟩
  | .local _ .vmem, ⟨7, _⟩ => ⟨S200x1, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S10000x1_S1x10000 : S10000x1.ShapeCasts S1x10000
  shapeCasts_S100x1_S1x100 : S100x1.ShapeCasts S1x100
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S200x10000_S200x10000_0_0 : ∀ a, (![0, 0] : Fin 2 → Nat) a + S200x10000.size a ≤ S200x10000.size a
  h_S200x10000 : 0 < S200x10000.numel
  broadcasts_S1x10000_S200x10000 : S1x10000.Broadcasts S200x10000
  reduces_S200x10000_S200 : S200x10000.Reduces [1] S200
  shapeCasts_S200_S200x1 : S200.ShapeCasts S200x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S200x100_S200x100_0_0 : ∀ a, (![0, 0] : Fin 2 → Nat) a + S200x100.size a ≤ S200x100.size a
  h_S200x100 : 0 < S200x100.numel
  broadcasts_S1x100_S200x100 : S1x100.Broadcasts S200x100
  reduces_S200x100_S200 : S200x100.Reduces [1] S200
  inb_S200x1_S200x1_0_0 : ∀ a, (![0, 0] : Fin 2 → Nat) a + S200x1.size a ≤ S200x1.size a
  h_S200x1 : 0 < S200x1.numel
  dot_S100x10000_S10000x1_S100x1_1_0_0_1_n_n_wf : DotDims.WF S100x10000 S10000x1 S100x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x100.size a ≤ S10000x100.size a
  hwx0_1 : ∀ i : grid0.Coords, EltTy.bits .f32 = 32 ∨ (Rect.block (s := S10000x100) S200x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x1.size a ≤ S10000x1.size a
  hwx0_4 : ∀ i : grid0.Coords, EltTy.bits .f32 = 32 ∨ (Rect.block (s := S10000x1) S200x1.size (cc0_transform_4 i) (hinb0_4 i)).WholeWords (EltTy.packing .f32)

variable [Facts₀]

def dot_S100x10000_S10000x1_S100x1_1_0_0_1_n_n : DotDims S100x10000 S10000x1 S100x1 where
  lhsContracting := [1]
  rhsContracting := [0]
  lhsNonContracting := [0]
  rhsNonContracting := [1]
  lhsBatch := []
  rhsBatch := []
  wf := dot_S100x10000_S10000x1_S100x1_1_0_0_1_n_n_wf

abbrev win0_0 : Pipeline.Window sig grid0 :=
  Pipeline.Window.ofSpec (Memref.whole main_arg3) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S200x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x1 : Shape := ⟨2, ![10000, 1]⟩
abbrev S100x10000 : Shape := ⟨2, ![100, 10000]⟩
abbrev S10000x100 : Shape := ⟨2, ![10000, 100]⟩
abbrev S10000x10000 : Shape := ⟨2, ![10000, 10000]⟩
abbrev S100x1 : Shape := ⟨2, ![100, 1]⟩

abbrev nBuf : Space → Nat
  | .hbm => 8
  | .vmem => 0
  | .smem => 0
  | _ => 0

abbrev bufTy : (tb : Table) → Fin (tcTables nBuf tb) → BufTy
  | .hbm, ⟨0, _⟩ => ⟨S10000x1, .f32⟩
  | .hbm, ⟨1, _⟩ => ⟨S100x10000, .f32⟩
  | .hbm, ⟨2, _⟩ => ⟨S10000x100, .f32⟩
  | .hbm, ⟨3, _⟩ => ⟨S10000x10000, .f32⟩
  | .hbm, ⟨4, _⟩ => ⟨S10000x1, .f32⟩
  | .hbm, ⟨5, _⟩ => ⟨S100x1, .f32⟩
  | .hbm, ⟨6, _⟩ => ⟨S10000x1, .f32⟩
  | .hbm, ⟨7, _⟩ => ⟨S10000x1, .f32⟩
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S10000x10000_S10000x1_S10000x1_1_0_0_1_n_n_wf : DotDims.WF S10000x10000 S10000x1 S10000x1 [1] [0] [0] [1] [] []
  dot_S100x10000_S10000x1_S100x1_1_0_0_1_n_n_wf : DotDims.WF S100x10000 S10000x1 S100x1 [1] [0] [0] [1] [] []
  dot_S10000x100_S100x1_S10000x1_1_0_0_1_n_n_wf : DotDims.WF S10000x100 S100x1 S10000x1 [1] [0] [0] [1] [] []

variable [Facts₀]

def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf
def dot_S100x10000_S10000x1_S100x1_1_0_0_1_n_n : DotDims S100x10000 S10000x1 S100x1 where
  lhsContracting := [1]
  rhsContracting := [0]
  lhsNonContracting := [0]
  rhsNonContracting := [1]
  lhsBatch := []
  rhsBatch := []
  wf := dot_S100x10000_S10000x1_S100x1_1_0_0_1_n_n_wf
def dot_S10000x100_S100x1_S10000x1_1_0_0_1_n_n : DotDims S10000x100 S100x1 S10000x1 where
  lhsContracting := [1]
  rhsContracting := [0]
  lhsNonContracting := [0]
  rhsNonContracting := [1]
  lhsBatch := []
  rhsBatch := []
  wf := dot_S10000x100_S100x1_S10000x1_1_0_0_1_n_n_wf

class Facts : Prop extends Facts₀ where

variable [Facts]
-- ==== Proof.Spec.lean ====
/-
  The low-rank-adapted linear layer, as one function of its four arrays. With `x` a column of 10000 entries,
  `A` a 100 × 10000 matrix (the down-projection), `B` a 10000 × 100 matrix (the up-projection) and `W` a
  10000 × 10000 matrix (the base weight), the result is the column

      out = W·x + B·(A·x),     out(i) = Σ_k W(i,k)·x(k) + Σ_r B(i,r)·(Σ_k A(r,k)·x(k)),

  every product and sum taken on the extended reals, each sum over its index in increasing order (a finite sum
  over `Fin n`). Nothing here distributes a product over a sum or cancels anything: both programs compute these
  very sums, so no entry needs to be finite.
-/
import Idealize.ShloMosaic.PureOps.Ideal
import Idealize.ShloMosaic.Lib.ValueIdx

noncomputable section

namespace Cert.LoraSpec

open Idealize.ShloMosaic Idealize.ShloMosaic.ValueIdx

/-- Entry `r` of the down-projected column `A·x`: `Σ_k A(r,k)·x(k)`. -/
def down (x : FVec Ideal ⟨2, ![10000, 1]⟩ .f32) (A : FVec Ideal ⟨2, ![100, 10000]⟩ .f32) (r : Fin 100) (u : Fin 1) : EReal :=
  ∑ k : Fin 10000, A (ix2 r k) * x (ix2 k u)

/-- The layer's result: `W·x + B·(A·x)`, entry by entry. -/
def loraFC (x : FVec Ideal ⟨2, ![10000, 1]⟩ .f32) (A : FVec Ideal ⟨2, ![100, 10000]⟩ .f32)
    (B : FVec Ideal ⟨2, ![10000, 100]⟩ .f32) (W : FVec Ideal ⟨2, ![10000, 10000]⟩ .f32) : FVec Ideal ⟨2, ![10000, 1]⟩ .f32 :=
  fun i => (∑ k : Fin 10000, W (ix2 (i 0) k) * x (ix2 k (i 1))) + ∑ r : Fin 100, B (ix2 (i 0) r) * down x A r (i 1)

end Cert.LoraSpec

end
-- ==== Proof.RefIsSpec.lean ====
/-
  The reference computes the layer's specification. Its four operations are three matrix products — `W·x`, `A·x`,
  `B·(A·x)` — and one sum; on the extended reals a matrix product's entry is the sum over the contracted index of
  the products of the two operands' entries, so entry `i` of the result is
  `Σ_k W(i,k)·x(k) + Σ_r B(i,r)·(Σ_k A(r,k)·x(k))`: the specification, term for term.
-/
import proofs.«103043_j26714696581715_2_alg».proof.Proof.Gen.ReferenceIdeal.Read
import proofs.«103043_j26714696581715_2_alg».proof.Proof.Spec

noncomputable section

namespace Cert.ReferenceIdeal.RefValue

open Cert.ReferenceIdeal Cert.ReferenceIdeal.Read Idealize.ShloMosaic Idealize.ShloMosaic.ValueIdx Cert.LoraSpec

/-- The reference's result, as the composition of its four operations, is the specification. -/
theorem ref_eq_spec (x : FVec Ideal S10000x1 .f32) (A : FVec Ideal S100x10000 .f32) (B : FVec Ideal S10000x100 .f32)
    (W : FVec Ideal S10000x10000 .f32) : val_main_v3 (F := Ideal) x A B W = loraFC x A B W := by
  funext i
  have eW : ∀ k : Fin 10000, lidx_main_v0 i k = ix2 (i 0) k := fun k =>
    funext fun a => Fin.ext (by match a with | ⟨0, _⟩ => rfl | ⟨1, _⟩ => rfl)
  have ex : ∀ k : Fin 10000, ridx_main_v0 i k = ix2 k (i 1) := fun k =>
    funext fun a => Fin.ext (by match a with | ⟨0, _⟩ => rfl | ⟨1, _⟩ => rfl)
  have eB : ∀ r : Fin 100, lidx_main_v2 i r = ix2 (i 0) r := fun r =>
    funext fun a => Fin.ext (by match a with | ⟨0, _⟩ => rfl | ⟨1, _⟩ => rfl)
  have eA : ∀ (r : Fin 100) (k : Fin 10000), lidx_main_v1 (ridx_main_v2 i r) k = ix2 r k := fun r k =>
    funext fun a => Fin.ext (by match a with | ⟨0, _⟩ => rfl | ⟨1, _⟩ => rfl)
  have ex' : ∀ (r : Fin 100) (k : Fin 10000), ridx_main_v1 (ridx_main_v2 i r) k = ix2 k (i 1) := fun r k =>
    funext fun a => Fin.ext (by match a with | ⟨0, _⟩ => rfl | ⟨1, _⟩ => rfl)
  rw [val_main_v3_apply, val_main_v0_apply, val_main_v2_apply]
  simp only [val_main_v1_apply, eW, ex, eB, eA, ex', Ideal.addf_def]
  rfl

end Cert.ReferenceIdeal.RefValue

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibRowDot.lean ====
/-
  A tile's rows against one row vector. A matrix `M` of shape `[a, b]` multiplied entry by entry with a row `v` of
  shape `[1, b]` spread over its `a` rows, then summed along the last axis, leaves at row `p` the dot product
  `Σ_k M(p,k)·v(k)` — a matrix-vector product computed as multiply-and-reduce, without a matrix unit.
-/
import proofs.«103043_j26714696581715_2_alg».proof.Proof.LibKeepdims
import proofs.«103043_j26714696581715_2_alg».proof.Proof.LibRowBroadcast
import Idealize.ShloMosaic.Lib.ValueIdx

namespace Cert.LibRowDot

open Idealize.ShloMosaic Idealize.ShloMosaic.ValueIdx

/-- At the ideal values: the last-axis sum of `M ⊙ (v spread over the rows)`, read at row `p`, is `Σ_k M(p,k)·v(u,k)`.
    The row `v` may first pass through a cast to its own shape, which changes nothing. -/
theorem rowDot_apply {a b : ℕ} (M : FVec Ideal ⟨2, ![a, b]⟩ .f32) (v : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (hr : (⟨2, ![a, b]⟩ : Shape).Reduces [1] ⟨1, ![a]⟩) (acc : BitVec 32) (hφ : FKind.Formats .f32)
    (hacc : acc = FKind.add.neutral .f32 hφ) (p : Fin a) (u : Fin 1) :
    multiReduction .add [1] ⟨1, ![a]⟩ (mulf M (broadcastTo ⟨2, ![a, b]⟩ (shapeCast ⟨2, ![1, b]⟩ v hc) hb)) acc hr hφ hacc (ix1 p)
      = ∑ k : Fin b, M (ix2 p k) * v (ix2 u k) := by
  refine (Cert.LibKeepdims.multiReduction_add_lastAxis_apply _ acc hr hφ hacc p).trans ?_
  refine Finset.sum_congr rfl fun k _ => ?_
  rw [mulf_apply, Cert.LibRowBroadcast.broadcastTo_1b_ab_apply _ hb p k u, shapeCast_self]

end Cert.LibRowDot
-- ==== Proof.Block.lean ====
/-
  One grid point's result block, entry by entry. At a point the body holds a tile of 200 rows of `W` (200 × 10000), the
  matching 200 rows of `B` (200 × 100), the whole row `x` and the whole row `A·x`. It multiplies each tile with its
  row spread over the tile's rows, sums along the last axis, and adds the two columns of sums. So row `p` of the
  200 × 1 block it stores is `Σ_k Wtile(p,k)·xrow(k) + Σ_r Btile(p,r)·axrow(r)`.
-/
import proofs.«103043_j26714696581715_2_alg».proof.Proof.Gen.KernelIdeal.Value
import proofs.«103043_j26714696581715_2_alg».proof.Proof.LibRowDot

noncomputable section

namespace Cert.KernelIdeal.Block

open Cert.KernelIdeal Cert.KernelIdeal.Gen Cert.KernelIdeal.Value Idealize.ShloMosaic Idealize.ShloMosaic.ValueIdx

theorem hz : (![0, 0] : Fin 2 → Nat) = fun _ => 0 := funext fun a => by fin_cases a <;> rfl

/-- The block's one function of the body's four loads, at row `p`: the two row-by-row dot products, added. -/
theorem E4_apply (P0 : Vec Ideal S200x10000 .f32) (P1 : Vec Ideal S1x10000 .f32) (P2 : Vec Ideal S200x100 .f32)
    (P3 : Vec Ideal S1x100 .f32) (p : Fin 200) (u u' : Fin 1) :
    E4 (F := Ideal) P0 P1 P2 P3 (ix2 p u)
      = (∑ k : Fin 10000, P0 (ix2 p k) * P1 (ix2 u' k)) + ∑ r : Fin 100, P2 (ix2 p r) * P3 (ix2 u' r) := by
  have h0 : ix4_0 (ix2 p u) = ix1 p := funext fun a => Fin.ext (by match a with | ⟨0, _⟩ => rfl)
  have h1 : ix4_1 (ix2 p u) = ix1 p := funext fun a => Fin.ext (by match a with | ⟨0, _⟩ => rfl)
  unfold E4
  rw [h0, h1, Ideal.addf_def]
  exact congrArg₂ (· + ·)
    (Cert.LibRowDot.rowDot_apply (a := 200) (b := 10000) P0 P1 _ _ _ _ _ _ p u')
    (Cert.LibRowDot.rowDot_apply (a := 200) (b := 100) P2 P3 _ _ _ _ _ _ p u')

/-- What the body leaves in the output's staging buffer, from the four input blocks, at row `p`. -/
theorem out_apply (x0 : Vec Ideal S200x10000 .f32) (x1 : Vec Ideal S200x100 .f32) (x2 : Vec Ideal S1x10000 .f32)
    (x3 : Vec Ideal S1x100 .f32) (p : Fin 200) (u u' : Fin 1) :
    out0_4 (F := Ideal) x0 x1 x2 x3 (ix2 p u)
      = (∑ k : Fin 10000, x0 (ix2 p k) * x2 (ix2 u' k)) + ∑ r : Fin 100, x1 (ix2 p r) * x3 (ix2 u' r) := by
  unfold out0_4
  simp only [View.ld_unit_zero (S := S1x10000) hz, View.ld_unit_zero (S := S200x10000) hz,
    View.ld_unit_zero (S := S1x100) hz, View.ld_unit_zero (S := S200x100) hz]
  rw [canon4_eq]
  exact E4_apply x0 x2 x1 x3 p u u'

end Cert.KernelIdeal.Block

end
-- ==== Proof.HostPrefix.lean ====
/-
  What the kernel's launch finds in the two arrays the host prepared before it. The host first takes the
  down-projection `A·x` (a matrix product, a column of 100 entries), then re-lays the two columns `x` and `A·x` as
  rows — `[10000, 1]` to `[1, 10000]` and `[100, 1]` to `[1, 100]` — so that the kernel can spread them across a
  tile's rows. Re-laying a column as a row moves no value: entry `k` of the row is entry `k` of the column. So the
  first row holds `x(k)` at column `k` and the second holds `Σ_k A(r,k)·x(k)` at column `r`.
-/
import proofs.«103043_j26714696581715_2_alg».proof.Proof.Gen.KernelIdeal.Frame
import proofs.«103043_j26714696581715_2_alg».proof.Proof.Gen.ReferenceIdeal.Read
import proofs.«103043_j26714696581715_2_alg».proof.Proof.LibKeepdims
import proofs.«103043_j26714696581715_2_alg».proof.Proof.Spec
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.LoraSpec

variable (m : (ℓ : Loc nD τ sig) → Buf (Elt Ideal) ℓ)

/-- The array of window 2 at the launch: the column `x` re-laid as a row. -/
theorem V_xrow (c : Dev nD) : (V m c main_v1 : S1x10000.Idx → EReal)
    = shapeCast S1x10000 (m ((c : Thread nD τ).loc main_arg0)) shapeCasts_S10000x1_S1x10000 := by
  dsimp only [V, hostOps0]
  after_results
  rfl

/-- The array of window 3 at the launch: the column `A·x` re-laid as a row. -/
theorem V_axrow (c : Dev nD) : (V m c main_v2 : S1x100.Idx → EReal)
    = shapeCast S1x100 (Host.dotGeneral (F := Ideal) (φ₁ := .f32) (φ₂ := .f32) dot_S100x10000_S10000x1_S100x1_1_0_0_1_n_n none
        (m ((c : Thread nD τ).loc main_arg1) : FVec Ideal S100x10000 .f32) (m ((c : Thread nD τ).loc main_arg0) : FVec Ideal S10000x1 .f32))
      shapeCasts_S100x1_S1x100 := by
  dsimp only [V, hostOps0]
  after_results
  rfl

/-- Column `k` of the first row is `x(k)`. -/
theorem xrow_apply (c : Dev nD) (u : Fin 1) (k : Fin 10000) (u' : Fin 1) :
    (V m c main_v1 : S1x10000.Idx → EReal) (ix2 u k)
      = (m ((c : Thread nD τ).loc main_arg0) : S10000x1.Idx → EReal) (ix2 k u') := by
  rw [V_xrow]
  exact Cert.LibKeepdims.shapeCast_a1_1a_apply _ _ u k u'

/-- Column `r` of the second row is entry `r` of the down-projection, `Σ_k A(r,k)·x(k)`: the host's matrix product
    at the ideal values is that sum over the contracted index. -/
theorem axrow_apply (c : Dev nD) (u : Fin 1) (r : Fin 100) (u' : Fin 1) :
    (V m c main_v2 : S1x100.Idx → EReal) (ix2 u r)
      = down (m ((c : Thread nD τ).loc main_arg0)) (m ((c : Thread nD τ).loc main_arg1)) r u' := by
  rw [V_axrow]
  refine (Cert.LibKeepdims.shapeCast_a1_1a_apply _ _ u r u').trans ?_
  show Cert.ReferenceIdeal.Read.val_main_v1 (F := Ideal) (m ((c : Thread nD τ).loc main_arg0)) (m ((c : Thread nD τ).loc main_arg1)) (ix2 r u') = _
  rw [Cert.ReferenceIdeal.Read.val_main_v1_apply]
  refine Finset.sum_congr rfl fun k _ => ?_
  have eA : Cert.ReferenceIdeal.Read.lidx_main_v1 (ix2 r u') k = ix2 r k :=
    funext fun a => Fin.ext (by match a with | ⟨0, _⟩ => rfl | ⟨1, _⟩ => rfl)
  have ex : Cert.ReferenceIdeal.Read.ridx_main_v1 (ix2 r u') k = ix2 k u' :=
    funext fun a => Fin.ext (by match a with | ⟨0, _⟩ => rfl | ⟨1, _⟩ => rfl)
  rw [eA, ex]

end Cert.KernelIdeal.HostPrefix

end
-- ==== Proof.Whole.lean ====
/-
  From the grid's blocks to the whole result array. The grid has 50 points; point `t` holds rows `200·t … 200·t + 199`
  of `W` and of `B`, the whole rows `x` and `A·x`, and writes back rows `200·t … 200·t + 199` of the result column.
  Row `p` of its block is `Σ_k W(200t+p,k)·x(k) + Σ_r B(200t+p,r)·(A·x)(r)` — entry `200t + p` of the layer's
  specification. Row `i` of the result lies in the block of point `i / 200`, so the 50 blocks cover the column and
  the array after the run is the specification of the arrays as launched.
-/
import proofs.«103043_j26714696581715_2_alg».proof.Proof.Gen.KernelIdeal.Value
import proofs.«103043_j26714696581715_2_alg».proof.Proof.Block
import proofs.«103043_j26714696581715_2_alg».proof.Proof.HostPrefix
import proofs.«103043_j26714696581715_2_alg».proof.Proof.Spec
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.LoraSpec
open Idealize.ShloMosaic.Pipeline (Dat)

variable (m : (ℓ : Loc nD τ sig) → Buf (Elt Ideal) ℓ) (ρ : Dev nD → PrngReg)

/-- The layer's specification of the four argument arrays as launched. -/
abbrev result (c : Dev nD) : S10000x1.Idx → EReal :=
  loraFC (m ((c : Thread nD τ).loc main_arg0)) (m ((c : Thread nD τ).loc main_arg1))
    (m ((c : Thread nD τ).loc main_arg2)) (m ((c : Thread nD τ).loc main_arg3))

/-- Which block each window holds at point `t`: the tiles of `W`, `B` and the result move down with `t`, the two
    rows stay (decided over the 50 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the tile of `W` at point `t` is row `200·t + p` of `W`. -/
theorem Wtile_apply (c : Dev nD) (t : Fin cfg0.N) (p : Fin 200) (k : Fin 10000) (i : Fin 10000) (hi : i.val = t.val * 200 + p.val) :
    (iblk m c 0 t : Vec Ideal S200x10000 .f32) (ix2 p k)
      = (m ((c : Thread nD τ).loc main_arg3) : S10000x10000.Idx → EReal) (ix2 i k) := by
  obtain ⟨e0, e1, -⟩ := idx_facts t
  unfold iblk
  rw [View.read_apply]
  show V m c main_arg3 _ = _
  refine (congrFun (V_main_arg3 m c) _).trans (congrArg _ ?_)
  funext a; apply Fin.ext
  match a with
  | ⟨0, _⟩ => show win0_0.index t (0 : Fin 2) * 200 + 1 * p.val = i.val; omega
  | ⟨1, _⟩ => show win0_0.index t (1 : Fin 2) * 10000 + 1 * k.val = k.val; omega

/-- Row `p` of the tile of `B` at point `t` is row `200·t + p` of `B`. -/
theorem Btile_apply (c : Dev nD) (t : Fin cfg0.N) (p : Fin 200) (r : Fin 100) (i : Fin 10000) (hi : i.val = t.val * 200 + p.val) :
    (iblk m c 1 t : Vec Ideal S200x100 .f32) (ix2 p r)
      = (m ((c : Thread nD τ).loc main_arg2) : S10000x100.Idx → EReal) (ix2 i r) := by
  obtain ⟨-, -, e0, e1, -⟩ := idx_facts t
  unfold iblk
  rw [View.read_apply]
  show V m c main_arg2 _ = _
  refine (congrFun (V_main_arg2 m c) _).trans (congrArg _ ?_)
  funext a; apply Fin.ext
  match a with
  | ⟨0, _⟩ => show win0_1.index t (0 : Fin 2) * 200 + 1 * p.val = i.val; omega
  | ⟨1, _⟩ => show win0_1.index t (1 : Fin 2) * 100 + 1 * r.val = r.val; omega

/-- The block of the row `x` at any point is the whole row: column `k` holds `x(k)`. -/
theorem xrow_blk_apply (c : Dev nD) (t : Fin cfg0.N) (u : Fin 1) (k : Fin 10000) (u' : Fin 1) :
    (iblk m c 2 t : Vec Ideal S1x10000 .f32) (ix2 u k)
      = (m ((c : Thread nD τ).loc main_arg0) : S10000x1.Idx → EReal) (ix2 k u') := by
  obtain ⟨-, -, -, -, e0, e1, -⟩ := idx_facts t
  unfold iblk
  rw [View.read_apply]
  show V m c main_v1 _ = _
  refine Eq.trans (congrArg _ ?_) (HostPrefix.xrow_apply m c u k u')
  funext a; apply Fin.ext
  have hu : u.val = 0 := by omega
  match a with
  | ⟨0, _⟩ => show win0_2.index t (0 : Fin 2) * 1 + 1 * u.val = u.val; omega
  | ⟨1, _⟩ => show win0_2.index t (1 : Fin 2) * 10000 + 1 * k.val = k.val; omega

/-- The block of the row `A·x` at any point is the whole row: column `r` holds `Σ_k A(r,k)·x(k)`. -/
theorem axrow_blk_apply (c : Dev nD) (t : Fin cfg0.N) (u : Fin 1) (r : Fin 100) (u' : Fin 1) :
    (iblk m c 3 t : Vec Ideal S1x100 .f32) (ix2 u r)
      = down (m ((c : Thread nD τ).loc main_arg0)) (m ((c : Thread nD τ).loc main_arg1)) r u' := by
  obtain ⟨-, -, -, -, -, -, e0, e1, -⟩ := idx_facts t
  unfold iblk
  rw [View.read_apply]
  show V m c main_v2 _ = _
  refine Eq.trans (congrArg _ ?_) (HostPrefix.axrow_apply m c u r u')
  funext a; apply Fin.ext
  have hu : u.val = 0 := by omega
  match a with
  | ⟨0, _⟩ => show win0_3.index t (0 : Fin 2) * 1 + 1 * u.val = u.val; omega
  | ⟨1, _⟩ => show win0_3.index t (1 : Fin 2) * 100 + 1 * r.val = r.val; omega

/-- Row `p` of what point `t` leaves for the result is entry `200·t + p` of the specification. -/
theorem point_apply (c : Dev nD) (t : Fin cfg0.N) (p : Fin 200) (u : Fin 1) (i : Fin 10000) (hi : i.val = t.val * 200 + p.val) :
    (out0_4 (iblk m c 0 t) (iblk m c 1 t) (iblk m c 2 t) (iblk m c 3 t) : Vec Ideal S200x1 .f32) (ix2 p u)
      = result m c (ix2 i u) := by
  refine (Block.out_apply _ _ _ _ p u u).trans ?_
  show _ = loraFC _ _ _ _ (ix2 i u)
  unfold loraFC
  refine congrArg₂ (· + ·) (Finset.sum_congr rfl fun k _ => ?_) (Finset.sum_congr rfl fun r _ => ?_)
  · exact congrArg₂ (· * ·) (Wtile_apply m c t p k i hi) (xrow_blk_apply m c t u k u)
  · exact congrArg₂ (· * ·) (Btile_apply m c t p r i hi) (axrow_blk_apply m c t u r u)

/-- What point `t` writes back is block `t` of the specification. -/
theorem flushed_eq (c : Dev nD) (t : Fin cfg0.N) :
    (dats m 0 c).flushed 4 t = ((cfg0.win 4).blk t).view.read (Elt Ideal) (result m c) := by
  rw [flushed4]
  obtain ⟨-, -, -, -, -, -, -, -, e0, e1⟩ := idx_facts t
  have ht : t.val < 50 := by have h := t.isLt; have hN : cfg0.N = 50 := N_0; omega
  funext j
  have hj0 : (j 0).val < 200 := (j 0).isLt
  have hj1 : (j 1).val < 1 := (j 1).isLt
  show (out0_4 (iblk m c 0 t) (iblk m c 1 t) (iblk m c 2 t) (iblk m c 3 t) : Vec Ideal S200x1 .f32) j
    = result m c (((cfg0.win 4).blk t).view.emb j)
  have hemb : ((cfg0.win 4).blk t).view.emb j = ix2 (⟨t.val * 200 + (j 0).val, by omega⟩ : Fin 10000) (j 1) := by
    funext a; apply Fin.ext
    match a with
    | ⟨0, _⟩ => show win0_4.index t (0 : Fin 2) * 200 + 1 * (j 0).val = t.val * 200 + (j 0).val; omega
    | ⟨1, _⟩ => show win0_4.index t (1 : Fin 2) * 1 + 1 * (j 1).val = (j 1).val; omega
  rw [hemb]
  exact (congrArg _ (eq_ix2 j)).trans (point_apply m c t (j 0) (j 1) _ rfl)

/-- Every row of the result column lies in the block of the point `row / 200`. -/
theorem cover (i : S10000x1.Idx) :
    ∃ t : Fin cfg0.N, (cfg0.win 4).flush t = true ∧ i ∈ ((cfg0.win 4).blk t).view.set := by
  have hi0 : (i 0).val < 10000 := (i 0).isLt
  have hi1 : (i 1).val < 1 := (i 1).isLt
  obtain ⟨t, ht⟩ : ∃ t : Fin cfg0.N, t.val = (i 0).val / 200 :=
    ⟨⟨(i 0).val / 200, by rw [show cfg0.N = 50 from N_0]; omega⟩, rfl⟩
  obtain ⟨-, -, -, -, -, -, -, -, e0, e1⟩ := idx_facts t
  refine ⟨t, flush0_4 t, ?_⟩
  show i ∈ ((View.whole main_v3).slice (win0_4.rect t)).set
  rw [View.set_slice_whole, Rect.mem_set_unit]
  intro a
  match a with
  | ⟨0, _⟩ =>
    show win0_4.index t (0 : Fin 2) * 200 ≤ (i 0).val ∧ (i 0).val < win0_4.index t (0 : Fin 2) * 200 + 200
    omega
  | ⟨1, _⟩ =>
    show win0_4.index t (1 : Fin 2) * 1 ≤ (i 1).val ∧ (i 1).val < win0_4.index t (1 : Fin 2) * 1 + 1
    omega

/-- The result array after the run is the specification of the arrays as launched. -/
theorem final (c : Dev nD) : (dats m 0 c).arrAt 4 cfg0.N = result m c :=
  (dats m 0 c).arrAt_eq_of_cover 4 (result m c) (fun t _ => flushed_eq m c t) cover

/-- The kernel's run, read: it terminates with the result array at the specification and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  The low-rank-adapted linear layer `out = W·x + B·(A·x)` (`x` a column of 10000 entries, `A` 100 × 10000,
  `B` 10000 × 100, `W` 10000 × 10000), computed by a tiled kernel and by four host operations, is one function of
  the four arrays on the extended reals.

  The kernel's host part takes `A·x` as a matrix product and re-lays `x` and `A·x` as rows. Its grid of 50 points
  walks down `W`, `B` and the result 200 rows at a time; at each point it multiplies the tile of `W` with the row `x`
  spread over the tile's rows and sums along the last axis, does the same with the tile of `B` and the row `A·x`, and
  adds the two columns. So result row `i` is `Σ_k W(i,k)·x(k) + Σ_r B(i,r)·(Σ_k A(r,k)·x(k))`. The reference takes the
  three matrix products `W·x`, `A·x`, `B·(A·x)` and adds: the same sums in the same order, a matrix product's entry at
  the ideal values being the sum of the products over the contracted index, and a last-axis sum from the zero
  accumulator being the sum of the row's entries. No product is distributed over a sum and nothing is cancelled, so the
  equality holds for every extended-real input and the finiteness of the inputs is never used.

  The kernel rewrites nothing when idealized, so the idealization claim is trivially true; the three frames are the
  generated ones (the reference's is its run with the result dropped).
-/
import proofs.«103043_j26714696581715_2_alg».proof.Defs
import proofs.«103043_j26714696581715_2_alg».proof.Proof.Gen.Kernel
import proofs.«103043_j26714696581715_2_alg».proof.Proof.Gen.Kernel.Skeleton
import proofs.«103043_j26714696581715_2_alg».proof.Proof.Gen.Kernel.Launch
import proofs.«103043_j26714696581715_2_alg».proof.Proof.Gen.Kernel.Points
import proofs.«103043_j26714696581715_2_alg».proof.Proof.Gen.Kernel.Frame
import proofs.«103043_j26714696581715_2_alg».proof.Proof.Gen.KernelIdeal
import proofs.«103043_j26714696581715_2_alg».proof.Proof.Gen.KernelIdeal.Skeleton
import proofs.«103043_j26714696581715_2_alg».proof.Proof.Gen.KernelIdeal.Launch
import proofs.«103043_j26714696581715_2_alg».proof.Proof.Gen.KernelIdeal.Points
import proofs.«103043_j26714696581715_2_alg».proof.Proof.Gen.KernelIdeal.Frame
import proofs.«103043_j26714696581715_2_alg».proof.Proof.Gen.ReferenceIdeal
import proofs.«103043_j26714696581715_2_alg».proof.Proof.Gen.Pre_finite_inputs
import proofs.«103043_j26714696581715_2_alg».proof.Proof.Gen.KernelIdeal.Value
import proofs.«103043_j26714696581715_2_alg».proof.Proof.Gen.ReferenceIdeal.Run
import proofs.«103043_j26714696581715_2_alg».proof.Proof.Gen.ReferenceIdeal.Read
import proofs.«103043_j26714696581715_2_alg».proof.Proof.RefIsSpec
import proofs.«103043_j26714696581715_2_alg».proof.Proof.Whole
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arrays both programs end with the layer's specification of those arrays in
    the result: the kernel block by block over its 50 points, the reference as the composition of its four operations. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq_spec,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
